-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x6 : Shape := ⟨2, ![8388608, 6]⟩
abbrev S_ : Shape := ⟨0, ![]⟩

class Facts : Prop where
  bcast_S_S8388608x6 : S_.BroadcastsInDim S8388608x6 (![] : Fin 0 → Fin S8388608x6.rank)
  reducesTo_S8388608x6_S_d0_1 : S8388608x6.ReducesTo [0, 1] S_
  h_S_ : 0 < S_.numel

variable [Facts]

def fn {F : FTy → Type} [FloatOps F] (main_arg0 : FVec F S8388608x6 .f32) : IVec S_ 1 :=
  let main_v0 : FVec F S8388608x6 .f32 := Host.absf main_arg0
  let main_cst : FVec F S_ .f32 := constant S_ .f32 0x7F800000#32
  let main_v1 : FVec F S8388608x6 .f32 := broadcastInDim S8388608x6 ![] bcast_S_S8388608x6 main_cst
  let main_v2 : IVec S8388608x6 1 := cmpf .olt main_v0 main_v1
  let main_c : IVec S_ 1 := constantI S_ 1 1#1
  let main_v3 : IVec S_ 1 := (fun x v => Host.reduce IntOp.andi x v reducesTo_S8388608x6_S_d0_1 h_S_) main_v2 main_c
  main_v3
-- ==== Kernel.lean ====
abbrev S8388608x6 : Shape := ⟨2, ![8388608, 6]⟩
abbrev S8388608x9 : Shape := ⟨2, ![8388608, 9]⟩
abbrev S2048x6 : Shape := ⟨2, ![2048, 6]⟩
abbrev S2048x9 : Shape := ⟨2, ![2048, 9]⟩
abbrev S2048x1 : Shape := ⟨2, ![2048, 1]⟩
abbrev S8388608x3x3 : Shape := ⟨3, ![8388608, 3, 3]⟩

abbrev nBuf : Space → Nat
  | .hbm => 3
  | .vmem => 4
  | .smem => 0
  | _ => 0

abbrev bufTy : (tb : Table) → Fin (tcTables nBuf tb) → BufTy
  | .hbm, ⟨0, _⟩ => ⟨S8388608x6, .f32⟩
  | .hbm, ⟨1, _⟩ => ⟨S8388608x9, .f32⟩
  | .hbm, ⟨2, _⟩ => ⟨S8388608x3x3, .f32⟩
  | .local _ .vmem, ⟨0, _⟩ => ⟨S2048x6, .f32⟩
  | .local _ .vmem, ⟨1, _⟩ => ⟨S2048x6, .f32⟩
  | .local _ .vmem, ⟨2, _⟩ => ⟨S2048x9, .f32⟩
  | .local _ .vmem, ⟨3, _⟩ => ⟨S2048x9, .f32⟩
  | _, _ => ⟨S8388608x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4096], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x9 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S2048x6_S2048x6_0_0 : ∀ a, (![0, 0] : Fin 2 → Nat) a + S2048x6.size a ≤ S2048x6.size a
  h_S2048x6 : 0 < S2048x6.numel
  slices_S2048x6_o0_0_S2048x1 : S2048x6.Slices ![0, 0] S2048x1
  slices_S2048x6_o0_1_S2048x1 : S2048x6.Slices ![0, 1] S2048x1
  slices_S2048x6_o0_2_S2048x1 : S2048x6.Slices ![0, 2] S2048x1
  slices_S2048x6_o0_3_S2048x1 : S2048x6.Slices ![0, 3] S2048x1
  slices_S2048x6_o0_4_S2048x1 : S2048x6.Slices ![0, 4] S2048x1
  slices_S2048x6_o0_5_S2048x1 : S2048x6.Slices ![0, 5] S2048x1
  concatenates_S2048x1_S2048x1_S2048x1_S2048x1_S2048x1_S2048x1_S2048x1_S2048x1_S2048x1_S2048x9_d1 : Shape.Concatenates [S2048x1, S2048x1, S2048x1, S2048x1, S2048x1, S2048x1, S2048x1, S2048x1, S2048x1] S2048x9 1
  inb_S2048x9_S2048x9_0_0 : ∀ a, (![0, 0] : Fin 2 → Nat) a + S2048x9.size a ≤ S2048x9.size a
  h_S2048x9 : 0 < S2048x9.numel
  shapeCasts_S8388608x9_S8388608x3x3 : S8388608x9.ShapeCasts S8388608x3x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x6.size a ≤ S8388608x6.size a
  hwx0_0 : ∀ i : grid0.Coords, EltTy.bits .f32 = 32 ∨ (Rect.block (s := S8388608x6) S2048x6.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x9.size a ≤ S8388608x9.size a
  hwx0_1 : ∀ i : grid0.Coords, EltTy.bits .f32 = 32 ∨ (Rect.block (s := S8388608x9) S2048x9.size (cc0_transform_1 i) (hinb0_1 i)).WholeWords (EltTy.packing .f32)

variable [Facts₀]

abbrev win0_0 : Pipeline.Window sig grid0 :=
  Pipeline.Window.ofSpec (Memref.whole main_arg0) S2048x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x9.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8388608x6 : Shape := ⟨2, ![8388608, 6]⟩
abbrev S6 : Shape := ⟨1, ![6]⟩
abbrev S_ : Shape := ⟨0, ![]⟩
abbrev S8388608x3x3 : Shape := ⟨3, ![8388608, 3, 3]⟩
abbrev S6x1 : Shape := ⟨2, ![6, 1]⟩
abbrev S6x2 : Shape := ⟨2, ![6, 2]⟩

abbrev nBuf : Space → Nat
  | .hbm => 20
  | .vmem => 0
  | .smem => 0
  | _ => 0

abbrev bufTy : (tb : Table) → Fin (tcTables nBuf tb) → BufTy
  | .hbm, ⟨0, _⟩ => ⟨S8388608x6, .f32⟩
  | .hbm, ⟨1, _⟩ => ⟨S6, .i32⟩
  | .hbm, ⟨2, _⟩ => ⟨S6, .i1⟩
  | .hbm, ⟨3, _⟩ => ⟨S6, .i32⟩
  | .hbm, ⟨4, _⟩ => ⟨S6, .i1⟩
  | .hbm, ⟨5, _⟩ => ⟨S_, .f32⟩
  | .hbm, ⟨6, _⟩ => ⟨S8388608x3x3, .f32⟩
  | .hbm, ⟨7, _⟩ => ⟨S_, .i32⟩
  | .hbm, ⟨8, _⟩ => ⟨S6, .i32⟩
  | .hbm, ⟨9, _⟩ => ⟨S6, .i32⟩
  | .hbm, ⟨10, _⟩ => ⟨S6, .i32⟩
  | .hbm, ⟨11, _⟩ => ⟨S_, .i32⟩
  | .hbm, ⟨12, _⟩ => ⟨S6, .i32⟩
  | .hbm, ⟨13, _⟩ => ⟨S6, .i32⟩
  | .hbm, ⟨14, _⟩ => ⟨S6, .i32⟩
  | .hbm, ⟨15, _⟩ => ⟨S6x1, .i32⟩
  | .hbm, ⟨16, _⟩ => ⟨S6x1, .i32⟩
  | .hbm, ⟨17, _⟩ => ⟨S6x2, .i32⟩
  | .hbm, ⟨18, _⟩ => ⟨S8388608x3x3, .f32⟩
  | .hbm, ⟨19, _⟩ => ⟨S8388608x3x3, .f32⟩
  | _, _ => ⟨S8388608x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_c_2 : Ref sig .tc := ⟨.hbm, 4, rfl⟩
abbrev main_cst : Ref sig .tc := ⟨.hbm, 5, rfl⟩
abbrev main_v0 : Ref sig .tc := ⟨.hbm, 6, rfl⟩
abbrev main_c_3 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_4 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩

abbrev nD : Nat := 1
abbrev τ : Topo := Topo.v7x

variable {F : FTy → Type} [FloatOps F]

class Facts₀ : Prop where
  bcast_S_S8388608x3x3 : S_.BroadcastsInDim S8388608x3x3 (![] : Fin 0 → Fin S8388608x3x3.rank)
  bcast_S_S6 : S_.BroadcastsInDim S6 (![] : Fin 0 → Fin S6.rank)
  bcast_S6_S6x1_0 : S6.BroadcastsInDim S6x1 (![0] : Fin 1 → Fin S6x1.rank)
  concatenates_S6x1_S6x1_S6x2_d1 : Shape.Concatenates [S6x1, S6x1] S6x2 1
  scatter_S8388608x3x3_S6x2_S8388608x6_0_12_12_1_wf : ScatterDims.WF S8388608x3x3 S6x2 S8388608x6 [0] [1, 2] [1, 2] 1
  dot_S8388608x3x3_S8388608x3x3_S8388608x3x3_2_2_1_1_0_0_wf : DotDims.WF S8388608x3x3 S8388608x3x3 S8388608x3x3 [2] [2] [1] [1] [0] [0]

variable [Facts₀]

def scatter_S8388608x3x3_S6x2_S8388608x6_0_12_12_1 : ScatterDims S8388608x3x3 S6x2 S8388608x6 where
  updateWindowDims := [0]
  insertedWindowDims := [1, 2]
  scatterDimsToOperandDims := [1, 2]
  indexVectorDim := 1
  wf := scatter_S8388608x3x3_S6x2_S8388608x6_0_12_12_1_wf
def dot_S8388608x3x3_S8388608x3x3_S8388608x3x3_2_2_1_1_0_0 : DotDims S8388608x3x3 S8388608x3x3 S8388608x3x3 where
  lhsContracting := [2]
  rhsContracting := [2]
  lhsNonContracting := [1]
  rhsNonContracting := [1]
  lhsBatch := [0]
  rhsBatch := [0]
  wf := dot_S8388608x3x3_S8388608x3x3_S8388608x3x3_2_2_1_1_0_0_wf

class Facts : Prop extends Facts₀ where

variable [Facts]
-- ==== Proof.RefRun.lean ====
/-
  The reference's run, read back.

  The reference is a straight line of host operations: it builds the 6×2 table of (row, column) positions of a
  3×3 lower triangle in packed order, scatters the packed argument through it into an all-zero [n, 3, 3] array `L`
  (each update replaces the element it lands on), and contracts `L` with itself over the last axis, batched over the
  first (`Q[b, i, k] = Σ_j L[b, i, j] · L[b, k, j]`). Every weakly fair execution terminates with the result buffer
  at that composed term of the argument, and the argument unchanged.
-/
import proofs.«130826_j54941221650671_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The packed positions' rows, as the program's table lists them: 0, 1, 1, 2, 2, 2. -/
abbrev rowsTab : IVec S6 32 := fun i => lit0 (S6.rowMajor i)
/-- The packed positions' columns: 0, 0, 1, 0, 1, 2. -/
abbrev colsTab : IVec S6 32 := fun i => lit1 (S6.rowMajor i)

/-- The program's normalisation of a (possibly negative) position: where the flag is set, the position plus 3. -/
abbrev wrapped (flag : IVec S6 1) (tab : IVec S6 32) : IVec S6 32 :=
  select flag (addi tab (broadcastInDim S6 ![] bcast_S_S6 (constantI S_ 32 3#32))) tab

/-- The 6×2 table of scatter indices: row `k` holds packed position `k`'s (row, column). -/
def posTable : IVec S6x2 32 :=
  concatenate S6x2 1
    [⟨S6x1, broadcastInDim S6x1 ![0] bcast_S6_S6x1_0 (wrapped (constantI S6 1 0#1) rowsTab)⟩,
     ⟨S6x1, broadcastInDim S6x1 ![0] bcast_S6_S6x1_0 (wrapped (constantI S6 1 0#1) colsTab)⟩]
    concatenates_S6x1_S6x1_S6x2_d1

/-- The lower-triangular factor: the packed argument scattered into zeros. -/
def lower (x : FVec F S8388608x6 .f32) : FVec F S8388608x3x3 .f32 :=
  Host.scatter scatter_S8388608x3x3_S6x2_S8388608x6_0_12_12_1 (fun _ b => b)
    (broadcastInDim S8388608x3x3 ![] bcast_S_S8388608x3x3 (constant (F := F) S_ .f32 0x00000000#32)) posTable x

/-- The reference's result as a function of its argument: the factor contracted with itself. -/
def result (x : FVec F S8388608x6 .f32) : FVec F S8388608x3x3 .f32 :=
  Host.dotGeneral dot_S8388608x3x3_S8388608x3x3_S8388608x3x3_2_2_1_1_0_0 none (lower x) (lower x)

/-- @main's 19 operations, in order. -/
abbrev ops : List (HloOp τ sig (Elt F)) :=
  [ nullary main_c (fun i => lit0 (S6.rowMajor i)),
    nullary main_c_0 (constantI S6 1 0#1),
    nullary main_c_1 (fun i => lit1 (S6.rowMajor i)),
    nullary main_c_2 (constantI S6 1 0#1),
    nullary main_cst (constant S_ .f32 0x00000000#32),
    unary main_cst main_v0 (broadcastInDim S8388608x3x3 ![] bcast_S_S8388608x3x3 : (⟨S_, .f32⟩ : BufTy).Contents (Elt F) → (⟨S8388608x3x3, .f32⟩ : BufTy).Contents (Elt F)),
    nullary main_c_3 (constantI S_ 32 3#32),
    unary main_c_3 main_v1 (broadcastInDim S6 ![] bcast_S_S6 : (⟨S_, .i32⟩ : BufTy).Contents (Elt F) → (⟨S6, .i32⟩ : BufTy).Contents (Elt F)),
    binary main_c main_v1 main_v2 (addi : (⟨S6, .i32⟩ : BufTy).Contents (Elt F) → (⟨S6, .i32⟩ : BufTy).Contents (Elt F) → (⟨S6, .i32⟩ : BufTy).Contents (Elt F)),
    ternary main_c_0 main_v2 main_c main_v3 (select : (⟨S6, .i1⟩ : BufTy).Contents (Elt F) → (⟨S6, .i32⟩ : BufTy).Contents (Elt F) → (⟨S6, .i32⟩ : BufTy).Contents (Elt F) → (⟨S6, .i32⟩ : BufTy).Contents (Elt F)),
    nullary main_c_4 (constantI S_ 32 3#32),
    unary main_c_4 main_v4 (broadcastInDim S6 ![] bcast_S_S6 : (⟨S_, .i32⟩ : BufTy).Contents (Elt F) → (⟨S6, .i32⟩ : BufTy).Contents (Elt F)),
    binary main_c_1 main_v4 main_v5 (addi : (⟨S6, .i32⟩ : BufTy).Contents (Elt F) → (⟨S6, .i32⟩ : BufTy).Contents (Elt F) → (⟨S6, .i32⟩ : BufTy).Contents (Elt F)),
    ternary main_c_2 main_v5 main_c_1 main_v6 (select : (⟨S6, .i1⟩ : BufTy).Contents (Elt F) → (⟨S6, .i32⟩ : BufTy).Contents (Elt F) → (⟨S6, .i32⟩ : BufTy).Contents (Elt F) → (⟨S6, .i32⟩ : BufTy).Contents (Elt F)),
    unary main_v3 main_v7 (broadcastInDim S6x1 ![0] bcast_S6_S6x1_0 : (⟨S6, .i32⟩ : BufTy).Contents (Elt F) → (⟨S6x1, .i32⟩ : BufTy).Contents (Elt F)),
    unary main_v6 main_v8 (broadcastInDim S6x1 ![0] bcast_S6_S6x1_0 : (⟨S6, .i32⟩ : BufTy).Contents (Elt F) → (⟨S6x1, .i32⟩ : BufTy).Contents (Elt F)),
    binary main_v7 main_v8 main_v9 ((fun a b => concatenate S6x2 1 [⟨S6x1, a⟩, ⟨S6x1, b⟩] concatenates_S6x1_S6x1_S6x2_d1) : (⟨S6x1, .i32⟩ : BufTy).Contents (Elt F) → (⟨S6x1, .i32⟩ : BufTy).Contents (Elt F) → (⟨S6x2, .i32⟩ : BufTy).Contents (Elt F)),
    ternary main_v0 main_v9 main_arg0 main_v10 ((fun x i u => Host.scatter scatter_S8388608x3x3_S6x2_S8388608x6_0_12_12_1 (fun _ b => b) x i u) : (⟨S8388608x3x3, .f32⟩ : BufTy).Contents (Elt F) → (⟨S6x2, .i32⟩ : BufTy).Contents (Elt F) → (⟨S8388608x6, .f32⟩ : BufTy).Contents (Elt F) → (⟨S8388608x3x3, .f32⟩ : BufTy).Contents (Elt F)),
    binary main_v10 main_v10 main_v11 ((fun l r => Host.dotGeneral dot_S8388608x3x3_S8388608x3x3_S8388608x3x3_2_2_1_1_0_0 none l r) : (⟨S8388608x3x3, .f32⟩ : BufTy).Contents (Elt F) → (⟨S8388608x3x3, .f32⟩ : BufTy).Contents (Elt F) → (⟨S8388608x3x3, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., nullary_bufs_sub .., nullary_bufs_sub .., nullary_bufs_sub .., unary_bufs_sub ..,
   nullary_bufs_sub .., unary_bufs_sub .., binary_bufs_sub .., ternary_bufs_sub .., nullary_bufs_sub .., unary_bufs_sub ..,
   binary_bufs_sub .., ternary_bufs_sub .., unary_bufs_sub .., unary_bufs_sub .., binary_bufs_sub .., ternary_bufs_sub ..,
   binary_bufs_sub ..⟩

/-- On every device, for any float values, from any memory with zero counters: every weakly fair execution of @main
    terminates with the result at `result` of the argument and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v11) = result (F := F) (m ((c.tc : Thread nD τ).loc main_arg0))
      ∧ r.2.mem ((c.tc : Thread nD τ).loc main_arg0) = m ((c.tc : Thread nD τ).loc main_arg0) :=
  (θ_run defs _ _).mono (fun _ h c => ⟨(h c main_v11).trans (by after_results; rfl),
      (h c main_arg0).trans (by after_results)⟩)
    (run_seq scopedRefs_eq scopedSems_eq defs main (fun _ => ops) main_eq (fun _ => ops_sub) m ρ)

end Cert.ReferenceIdeal.RefRun

end
-- ==== Proof.LibScatterSet.lean ====
/-
  A host scatter whose body returns the update (`x.at[idx].set(u)`), read at one element of its result.

  The scatter is the left fold, over the update indices in row-major order, of the step "replace the element the
  update lands on". Two facts follow by induction on the list of update indices, whatever the dimension numbers:
  * an element that NO update lands on keeps the operand's value;
  * an element that exactly ONE update lands on holds that update's value.
  (When several land on one element the last in row-major order wins; that case is not needed where the result
  indices are pairwise distinct, and is not stated.)
-/
import Idealize.ShloMosaic.PureOps.ShapeOps

namespace Idealize.ShloMosaic.ScatterSet

variable {α : Type} {s si u : Shape} {w : Nat}

/-- One step of the fold: update number `n` (row-major) replaces the element it lands on, if it lands inside. -/
def step (d : ScatterDims s si u) (idx : IVec si w) (upd : u.Idx → α) (r : s.Idx → α) (n : Fin u.numel) : s.Idx → α :=
  match d.resultIdx? (u.rowMajor.symm n) idx with
  | some i => fun i' => if i' = i then upd (u.rowMajor.symm n) else r i'
  | none => r

theorem scatter_eq_foldl (d : ScatterDims s si u) (x : s.Idx → α) (idx : IVec si w) (upd : u.Idx → α) :
    Host.scatter d (fun _ b => b) x idx upd = (List.finRange u.numel).foldl (step d idx upd) x := rfl

/-- A step whose update does not land on `i` leaves element `i` as it was. -/
theorem step_of_ne (d : ScatterDims s si u) (idx : IVec si w) (upd : u.Idx → α) (r : s.Idx → α) (n : Fin u.numel)
    (i : s.Idx) (h : d.resultIdx? (u.rowMajor.symm n) idx ≠ some i) : step d idx upd r n i = r i := by
  unfold step
  cases hr : d.resultIdx? (u.rowMajor.symm n) idx with
  | none => rfl
  | some i₀ =>
    have hne : i ≠ i₀ := fun e => h (by rw [hr, e])
    simp only [if_neg hne]

/-- A step whose update lands on `i` leaves the update's value there. -/
theorem step_of_eq (d : ScatterDims s si u) (idx : IVec si w) (upd : u.Idx → α) (r : s.Idx → α) (n : Fin u.numel)
    (i : s.Idx) (h : d.resultIdx? (u.rowMajor.symm n) idx = some i) : step d idx upd r n i = upd (u.rowMajor.symm n) := by
  unfold step
  rw [h]
  simp only [if_true]

/-- Steps none of which lands on `i` leave element `i` as it was. -/
theorem foldl_of_forall_ne (d : ScatterDims s si u) (idx : IVec si w) (upd : u.Idx → α) (i : s.Idx) :
    ∀ (l : List (Fin u.numel)) (r : s.Idx → α), (∀ n ∈ l, d.resultIdx? (u.rowMajor.symm n) idx ≠ some i) →
      l.foldl (step d idx upd) r i = r i
  | [], _, _ => rfl
  | n :: l, r, h => by
    rw [List.foldl_cons, foldl_of_forall_ne d idx upd i l _ (fun n' hn' => h n' (List.mem_cons_of_mem _ hn'))]
    exact step_of_ne d idx upd r n i (h n (List.mem_cons_self))

/-- **No update lands on `i`: the operand's element.** -/
theorem scatter_set_apply_of_forall_ne (d : ScatterDims s si u) (x : s.Idx → α) (idx : IVec si w) (upd : u.Idx → α) (i : s.Idx)
    (h : ∀ j : u.Idx, d.resultIdx? j idx ≠ some i) : Host.scatter d (fun _ b => b) x idx upd i = x i := by
  rw [scatter_eq_foldl]
  exact foldl_of_forall_ne d idx upd i _ x (fun n _ => h _)

/-- **Exactly one update, `j`, lands on `i`: that update's element.** -/
theorem scatter_set_apply_of_unique (d : ScatterDims s si u) (x : s.Idx → α) (idx : IVec si w) (upd : u.Idx → α) (i : s.Idx)
    (j : u.Idx) (hj : d.resultIdx? j idx = some i) (huniq : ∀ j' : u.Idx, d.resultIdx? j' idx = some i → j' = j) :
    Host.scatter d (fun _ b => b) x idx upd i = upd j := by
  rw [scatter_eq_foldl]
  -- split the row-major list of update numbers at `j`'s
  have hmem : u.rowMajor j ∈ List.finRange u.numel := List.mem_finRange _
  obtain ⟨l₁, l₂, hl⟩ := List.append_of_mem hmem
  have hnd : (List.finRange u.numel).Nodup := List.nodup_finRange _
  rw [hl] at hnd ⊢
  rw [List.foldl_append, List.foldl_cons]
  have hnot : u.rowMajor j ∉ l₂ := by
    have := (List.nodup_append.1 hnd).2.1
    exact (List.nodup_cons.1 this).1
  rw [foldl_of_forall_ne d idx upd i l₂ _ (fun n hn hland => by
    have e : u.rowMajor.symm n = j := huniq _ hland
    have : n = u.rowMajor j := by rw [← e, Equiv.apply_symm_apply]
    exact hnot (this ▸ hn))]
  have := step_of_eq d idx upd (l₁.foldl (step d idx upd) x) (u.rowMajor j) i (by rw [Equiv.symm_apply_apply]; exact hj)
  rw [this, Equiv.symm_apply_apply]

/-- An update whose start plus window coordinate is, axis by axis, the coordinate of `i` lands on `i`. -/
theorem resultIdx?_eq_some (d : ScatterDims s si u) (j : u.Idx) (idx : IVec si w) (i : s.Idx)
    (h : ∀ a, d.start j idx a + (d.window j a : Int) = ((i a).val : Int)) : d.resultIdx? j idx = some i := by
  unfold ScatterDims.resultIdx?
  have hb : ∀ a, 0 ≤ d.start j idx a + d.window j a ∧ d.start j idx a + d.window j a < s.size a := fun a => by
    rw [h a]; exact ⟨Int.natCast_nonneg _, by exact_mod_cast (i a).isLt⟩
  rw [dif_pos hb]
  congr 1
  funext a
  apply Fin.ext
  show (d.start j idx a + d.window j a).toNat = (i a).val
  rw [h a]; exact Int.toNat_natCast _

end Idealize.ShloMosaic.ScatterSet
-- ==== Proof.Spec.lean ====
/-
  The mathematics both programs compute, on the extended reals.

  A row of the packed argument holds the six entries of a 3×3 lower-triangular matrix `L` in the order
  (0,0), (1,0), (1,1), (2,0), (2,1), (2,2); the entries above the diagonal are zero. The result at (i, k) is the
  Gram entry `Σ_j L[i, j] · L[k, j]`.

  One program writes the nine Gram entries in closed form, leaving out the terms with a zero factor and using
  symmetry; the other sums all three terms. The two agree by `0 · a = 0`, `a + 0 = a` and the commutativity of
  the product — laws that hold for every extended real, infinite ones included, so no finiteness is needed.
-/
import Idealize.ShloMosaic.PureOps.Ideal
import Idealize.ShloMosaic.Lib.ValueIdx

noncomputable section

namespace Cert.CholCov

open Idealize.ShloMosaic Idealize.ShloMosaic.ValueIdx

/-- The packed position of entry (i, j) of the lower triangle, if it is one. -/
def packedPos : Fin 3 → Fin 3 → Option (Fin 6)
  | 0, 0 => some 0
  | 1, 0 => some 1
  | 1, 1 => some 2
  | 2, 0 => some 3
  | 2, 1 => some 4
  | 2, 2 => some 5
  | _, _ => none

/-- The row and the column of packed position `k`. -/
def rowOf : Fin 6 → Fin 3
  | 0 => 0 | 1 => 1 | 2 => 1 | 3 => 2 | 4 => 2 | 5 => 2
def colOf : Fin 6 → Fin 3
  | 0 => 0 | 1 => 0 | 2 => 1 | 3 => 0 | 4 => 1 | 5 => 2

theorem packedPos_rowOf_colOf (k : Fin 6) : packedPos (rowOf k) (colOf k) = some k := by
  fin_cases k <;> rfl

theorem eq_of_packedPos {i j : Fin 3} {k : Fin 6} (h : packedPos i j = some k) : rowOf k = i ∧ colOf k = j := by
  revert h; fin_cases i <;> fin_cases j <;> fin_cases k <;> decide

theorem packedPos_none_iff {i j : Fin 3} (h : packedPos i j = none) (k : Fin 6) : ¬(rowOf k = i ∧ colOf k = j) := by
  revert h; fin_cases i <;> fin_cases j <;> fin_cases k <;> decide

/-- Distinct packed positions are distinct entries of the triangle. -/
theorem pos_inj : ∀ k k' : Fin 6, rowOf k' = rowOf k → colOf k' = colOf k → k' = k := by decide

/-- Entry (i, j) of row `b`'s lower-triangular factor. -/
def lowerAt (x : (⟨2, ![8388608, 6]⟩ : Shape).Idx → EReal) (b : Fin 8388608) (i j : Fin 3) : EReal :=
  match packedPos i j with
  | some k => x (ix2 b k)
  | none => 0

/-- The Gram entry (i, k) of row `b`: the factor's row `i` against its row `k`. -/
def gram (x : (⟨2, ![8388608, 6]⟩ : Shape).Idx → EReal) (b : Fin 8388608) (i k : Fin 3) : EReal :=
  ∑ j : Fin 3, lowerAt x b i j * lowerAt x b k j

/-- The nine Gram entries, in row-major order of (i, k), in closed form of the six packed entries
    `l00, l10, l11, l20, l21, l22`. -/
def closedOf (l00 l10 l11 l20 l21 l22 : EReal) : Fin 9 → EReal
  | 0 => l00 * l00
  | 1 => l00 * l10
  | 2 => l00 * l20
  | 3 => l00 * l10
  | 4 => l10 * l10 + l11 * l11
  | 5 => l10 * l20 + l11 * l21
  | 6 => l00 * l20
  | 7 => l10 * l20 + l11 * l21
  | 8 => l20 * l20 + l21 * l21 + l22 * l22

/-- The closed form on row `b` of the packed argument. -/
def closedRow (x : (⟨2, ![8388608, 6]⟩ : Shape).Idx → EReal) (b : Fin 8388608) : Fin 9 → EReal :=
  closedOf (x (ix2 b 0)) (x (ix2 b 1)) (x (ix2 b 2)) (x (ix2 b 3)) (x (ix2 b 4)) (x (ix2 b 5))

/-- The flat position of (i, k) among the nine. -/
def flat (i k : Fin 3) : Fin 9 := ⟨3 * i.val + k.val, by have := i.isLt; have := k.isLt; omega⟩

/-- **The closed form is the Gram matrix**: dropping the terms with a zero factor and swapping factors changes no
    extended real. -/
theorem closedRow_eq_gram (x : (⟨2, ![8388608, 6]⟩ : Shape).Idx → EReal) (b : Fin 8388608) (i k : Fin 3) :
    closedRow x b (flat i k) = gram x b i k := by
  fin_cases i <;> fin_cases k <;>
    simp [closedRow, closedOf, gram, lowerAt, packedPos, flat, Fin.sum_univ_three, mul_comm]

end Cert.CholCov

end
-- ==== Proof.RefValue.lean ====
/-
  The reference's factor and result, read at an index.

  The scatter's update number (b, k) — packed entry `k` of row `b` — lands on element (b, row k, col k) of the
  factor: its window coordinate is `b` on the first axis, and its start on the last two axes is the position the
  table lists for `k`. Distinct updates land on distinct elements, so an element of the lower triangle holds the
  packed entry of its position and every other element keeps the zero it started with. The contraction of the factor
  with itself over the last axis, batched over rows, is then the Gram entry `Σ_j L[b, i, j] · L[b, k, j]`.
-/
import proofs.«130826_j54941221650671_2_alg».proof.Proof.RefRun
import proofs.«130826_j54941221650671_2_alg».proof.Proof.LibScatterSet
import proofs.«130826_j54941221650671_2_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.RefRun Idealize.ShloMosaic Idealize.ShloMosaic.ValueIdx
open Idealize.ShloMosaic.ScatterSet Cert.CholCov

/-- The scatter's dimension numbers: one window axis (rows), the last two operand axes addressed by the index vector. -/
abbrev sd := scatter_S8388608x3x3_S6x2_S8388608x6_0_12_12_1
/-- The contraction's dimension numbers: batch axis 0, contracted axis 2 on both sides. -/
abbrev dd := dot_S8388608x3x3_S8388608x3x3_S8388608x3x3_2_2_1_1_0_0

/-! ## The table of positions -/

theorem posTable_row (k : Fin 6) : (posTable (ix2 k 0)).toInt = ((rowOf k).val : Int) := by
  fin_cases k <;> decide
theorem posTable_col (k : Fin 6) : (posTable (ix2 k 1)).toInt = ((colOf k).val : Int) := by
  fin_cases k <;> decide

/-! ## Where update (b, k) lands -/

/-- Update (b, k) reads component `c` of its start index at entry (k, c) of the table. -/
theorem siIdx0 (b : Fin 8388608) (k : Fin 6) (h) : sd.siIdx (ix2 b k) ⟨0, h⟩ = ix2 k 0 := by
  funext b'; match b' with
  | ⟨0, _⟩ => rfl
  | ⟨1, _⟩ => rfl
theorem siIdx1 (b : Fin 8388608) (k : Fin 6) (h) : sd.siIdx (ix2 b k) ⟨1, h⟩ = ix2 k 1 := by
  funext b'; match b' with
  | ⟨0, _⟩ => rfl
  | ⟨1, _⟩ => rfl

theorem start0 (b : Fin 8388608) (k : Fin 6) : sd.start (ix2 b k) posTable 0 = 0 := rfl
theorem window0 (b : Fin 8388608) (k : Fin 6) : sd.window (ix2 b k) 0 = b.val := rfl
theorem window1 (b : Fin 8388608) (k : Fin 6) : sd.window (ix2 b k) 1 = 0 := rfl
theorem window2 (b : Fin 8388608) (k : Fin 6) : sd.window (ix2 b k) 2 = 0 := rfl
theorem start1 (b : Fin 8388608) (k : Fin 6) : sd.start (ix2 b k) posTable 1 = (posTable (ix2 k 0)).toInt := by
  unfold ScatterDims.start
  rw [dif_pos (by decide)]
  exact congrArg (fun z => (posTable z).toInt) (siIdx0 b k _)
theorem start2 (b : Fin 8388608) (k : Fin 6) : sd.start (ix2 b k) posTable 2 = (posTable (ix2 k 1)).toInt := by
  unfold ScatterDims.start
  rw [dif_pos (by decide)]
  exact congrArg (fun z => (posTable z).toInt) (siIdx1 b k _)

/-- **Update (b, k) lands on element (b, row k, col k).** -/
theorem lands (b : Fin 8388608) (k : Fin 6) : sd.resultIdx? (ix2 b k) posTable = some (ix3 b (rowOf k) (colOf k)) := by
  refine resultIdx?_eq_some sd _ _ _ fun a => ?_
  match a with
  | ⟨0, _⟩ =>
    show sd.start (ix2 b k) posTable 0 + (sd.window (ix2 b k) 0 : Int) = (b.val : Int)
    rw [start0, window0]; exact Int.zero_add _
  | ⟨1, _⟩ =>
    show sd.start (ix2 b k) posTable 1 + (sd.window (ix2 b k) 1 : Int) = ((rowOf k).val : Int)
    rw [start1, window1, posTable_row]; exact Int.add_zero _
  | ⟨2, _⟩ =>
    show sd.start (ix2 b k) posTable 2 + (sd.window (ix2 b k) 2 : Int) = ((colOf k).val : Int)
    rw [start2, window2, posTable_col]; exact Int.add_zero _

/-! ## The factor at an index -/

/-- **Entry (i, j) of row `b` of the scattered factor** is the packed entry at that position of the lower triangle,
    and zero above the diagonal. -/
theorem lower_apply (x : FVec Ideal S8388608x6 .f32) (b : Fin 8388608) (i j : Fin 3) :
    lower (F := Ideal) x (ix3 b i j) = lowerAt x b i j := by
  unfold lower lowerAt
  cases hp : packedPos i j with
  | some k =>
    obtain ⟨hr, hc⟩ := eq_of_packedPos hp
    subst hr; subst hc
    refine (scatter_set_apply_of_unique sd _ posTable x (ix3 b (rowOf k) (colOf k)) (ix2 b k) (lands b k) ?_).trans rfl
    intro j' hj'
    obtain ⟨b', k', rfl⟩ : ∃ (b' : Fin 8388608) (k' : Fin 6), j' = ix2 b' k' := ⟨j' 0, j' 1, eq_ix2 j'⟩
    rw [lands] at hj'
    have e := Option.some.inj hj'
    have e0 : b' = b := congrFun e 0
    have e1 : rowOf k' = rowOf k := congrFun e 1
    have e2 : colOf k' = colOf k := congrFun e 2
    rw [e0, pos_inj k k' e1 e2]
  | none =>
    refine (scatter_set_apply_of_forall_ne sd _ posTable x (ix3 b i j) ?_).trans ?_
    · intro j' hj'
      obtain ⟨b', k', rfl⟩ : ∃ (b' : Fin 8388608) (k' : Fin 6), j' = ix2 b' k' := ⟨j' 0, j' 1, eq_ix2 j'⟩
      rw [lands] at hj'
      have e := Option.some.inj hj'
      exact packedPos_none_iff hp k' ⟨congrFun e 1, congrFun e 2⟩
    · show Ideal.ofBits .f32 0x00000000#32 = 0
      exact Ideal.ofBits_zero_f32

/-! ## The contraction at an index -/

theorem contr_rank : dd.contr.rank = 1 := rfl
theorem contr_size : dd.contr.size ⟨0, by rw [contr_rank]; exact Nat.one_pos⟩ = 3 := rfl

/-- The left operand is read at (b, i, c) and the right one at (b, k, c). -/
theorem lhs_idx (b : Fin 8388608) (i k c : Fin 3) :
    dd.lhsIdx (ix3 b i k) ((contrEquiv1 dd 3 contr_rank contr_size).symm c) = ix3 b i c := by
  funext a; apply Fin.ext
  match a with
  | ⟨0, _⟩ => simp [DotDims.lhsIdx, dd, dot_S8388608x3x3_S8388608x3x3_S8388608x3x3_2_2_1_1_0_0]; rfl
  | ⟨1, _⟩ => simp [DotDims.lhsIdx, dd, dot_S8388608x3x3_S8388608x3x3_S8388608x3x3_2_2_1_1_0_0]; rfl
  | ⟨2, _⟩ => exact (dd.lhsIdx_val_of_single rfl _ _).trans (contrEquiv1_symm_val dd 3 contr_rank contr_size c)
theorem rhs_idx (b : Fin 8388608) (i k c : Fin 3) :
    dd.rhsIdx (ix3 b i k) ((contrEquiv1 dd 3 contr_rank contr_size).symm c) = ix3 b k c := by
  funext a; apply Fin.ext
  match a with
  | ⟨0, _⟩ => simp [DotDims.rhsIdx, dd, dot_S8388608x3x3_S8388608x3x3_S8388608x3x3_2_2_1_1_0_0]; rfl
  | ⟨1, _⟩ => simp [DotDims.rhsIdx, dd, dot_S8388608x3x3_S8388608x3x3_S8388608x3x3_2_2_1_1_0_0]; rfl
  | ⟨2, _⟩ => exact (dd.rhsIdx_val_of_single rfl _ _).trans (contrEquiv1_symm_val dd 3 contr_rank contr_size c)

/-- **The reference's result at (b, i, k) is the Gram entry** of row `b`'s factor. -/
theorem result_apply (x : FVec Ideal S8388608x6 .f32) (b : Fin 8388608) (i k : Fin 3) :
    result (F := Ideal) x (ix3 b i k) = gram x b i k := by
  unfold result gram
  refine (Ideal.dotGeneral_apply dd none .single (lower x) (lower x) (ix3 b i k)).trans ?_
  rw [← Equiv.sum_comp (contrEquiv1 dd 3 contr_rank contr_size).symm]
  refine Finset.sum_congr rfl fun c _ => ?_
  rw [lhs_idx, rhs_idx, lower_apply, lower_apply]

end Cert.ReferenceIdeal.RefValue

end
-- ==== Proof.KernelPayload.lean ====
/-
  What the kernel body stores, read at an index.

  The body loads a block of 2048 packed rows, takes its six columns, forms the nine closed-form Gram entries by
  products and sums of columns, and lays them side by side as the nine columns of the block it stores. So the stored
  block at (row p, column q) is the q-th closed-form entry of the six packed entries of row p.
-/
import proofs.«130826_j54941221650671_2_alg».proof.Proof.Gen.KernelIdeal.Skeleton
import proofs.«130826_j54941221650671_2_alg».proof.Proof.Spec
import Idealize.ShloMosaic.Lib.Pipeline.Value
import Idealize.ShloMosaic.Lib.ValueIdx

noncomputable section

namespace Cert.KernelIdeal.Payload

open Cert.KernelIdeal Cert.KernelIdeal.Gen Idealize.ShloMosaic Idealize.ShloMosaic.ValueIdx Cert.CholCov

/-- Column `c` of a block of packed rows, read at row `p`: the unit-width slice at offset (0, c) of the block. -/
theorem column_apply (v0 : Vec Ideal S2048x6 .f32) (c : Nat) (hc : c < 6) (h : S2048x6.Slices ![0, c] S2048x1) (p : Fin 2048) :
    extractStridedSlice S2048x1 ![0, c] v0 h (ix2 p 0) = v0 (ix2 p ⟨c, hc⟩) :=
  extractStridedSlice_apply _ v0 h (ix2 p 0) (ix2 p ⟨c, hc⟩) (fun a => by
    match a with
    | ⟨0, _⟩ => show p.val = 0 + p.val; omega
    | ⟨1, _⟩ => show c = c + 0; omega)

/-- Column `k` of the side-by-side layout of nine unit-width columns is the `k`-th piece, read at the same row. -/
local macro "piece_at " k:num p:ident : tactic =>
  `(tactic| refine Eq.trans (concatenate_apply_piece (t := S2048x9) 1 _ _ _ $k (by simp) S2048x1 _ rfl rfl $k rfl (ix2 $p 0) (fun b hb => by match b with | ⟨0, _⟩ => rfl | ⟨1, _⟩ => exact absurd rfl hb) rfl) ?_)

/-- **The stored block at (p, q)** is the `q`-th closed-form Gram entry of row `p`'s six packed entries. -/
theorem pay_apply (v0 : Vec Ideal S2048x6 .f32) (p : Fin 2048) (q : Fin 9) :
    k0_pay1 (F := Ideal) v0 (ix2 p q) =
      closedOf (v0 (ix2 p 0)) (v0 (ix2 p 1)) (v0 (ix2 p 2)) (v0 (ix2 p 3)) (v0 (ix2 p 4)) (v0 (ix2 p 5)) q := by
  have c0 := column_apply v0 0 (by omega) slices_S2048x6_o0_0_S2048x1 p
  have c1 := column_apply v0 1 (by omega) slices_S2048x6_o0_1_S2048x1 p
  have c2 := column_apply v0 2 (by omega) slices_S2048x6_o0_2_S2048x1 p
  have c3 := column_apply v0 3 (by omega) slices_S2048x6_o0_3_S2048x1 p
  have c4 := column_apply v0 4 (by omega) slices_S2048x6_o0_4_S2048x1 p
  have c5 := column_apply v0 5 (by omega) slices_S2048x6_o0_5_S2048x1 p
  unfold k0_pay1
  match q with
  | ⟨0, _⟩ => piece_at 0 p; simp only [mulf_apply, addf_apply, c0, c1, c2, c3, c4, c5]; rfl
  | ⟨1, _⟩ => piece_at 1 p; simp only [mulf_apply, addf_apply, c0, c1, c2, c3, c4, c5]; rfl
  | ⟨2, _⟩ => piece_at 2 p; simp only [mulf_apply, addf_apply, c0, c1, c2, c3, c4, c5]; rfl
  | ⟨3, _⟩ => piece_at 3 p; simp only [mulf_apply, addf_apply, c0, c1, c2, c3, c4, c5]; rfl
  | ⟨4, _⟩ => piece_at 4 p; simp only [mulf_apply, addf_apply, c0, c1, c2, c3, c4, c5]; rfl
  | ⟨5, _⟩ => piece_at 5 p; simp only [mulf_apply, addf_apply, c0, c1, c2, c3, c4, c5]; rfl
  | ⟨6, _⟩ => piece_at 6 p; simp only [mulf_apply, addf_apply, c0, c1, c2, c3, c4, c5]; rfl
  | ⟨7, _⟩ => piece_at 7 p; simp only [mulf_apply, addf_apply, c0, c1, c2, c3, c4, c5]; rfl
  | ⟨8, _⟩ => piece_at 8 p; simp only [mulf_apply, addf_apply, c0, c1, c2, c3, c4, c5]; rfl

end Cert.KernelIdeal.Payload

end
-- ==== Proof.KernelValue.lean ====
/-
  The kernel's result array, read back from its run.

  The grid has 4096 points; point `t` fetches rows [2048·t, 2048·t + 2048) of the packed argument and writes back the
  same rows of a flat [n, 9] array, each row holding the nine closed-form Gram entries of its packed row. The written
  blocks tile the flat array (row `r` belongs to point `r / 2048`), so after the run the flat array is the
  closed form of every row. The program then reshapes [n, 9] to [n, 3, 3]: entry (b, i, k) is flat entry
  (b, 3·i + k), which is the Gram entry (i, k) of row `b`.
-/
import proofs.«130826_j54941221650671_2_alg».proof.Proof.Gen.KernelIdeal.Frame
import proofs.«130826_j54941221650671_2_alg».proof.Proof.Spec
import proofs.«130826_j54941221650671_2_alg».proof.Proof.KernelPayload
import Idealize.ShloMosaic.Lib.Pipeline.Value
import Idealize.ShloMosaic.Lib.ValueIdx
import Idealize.ShloMosaic.Lib.StableHlo.Run

set_option maxRecDepth 16384

noncomputable section

namespace Cert.KernelIdeal.BlockValue

open Cert.KernelIdeal Cert.KernelIdeal.Gen Cert.KernelIdeal.Payload
open Idealize.ShloMosaic Idealize.ShloMosaic.TcCoe Idealize.ShloMosaic.ValueIdx Idealize.SL.Sem Cert.CholCov
open Idealize.ShloMosaic.Pipeline (Dat Cfg Window)

variable (m : (ℓ : Loc nD τ sig) → Buf (Elt Ideal) ℓ) (ρ : Dev nD → PrngReg)

theorem zero_offsets : (![0, 0] : Fin 2 → Nat) = fun _ => 0 := funext fun a => by fin_cases a <;> rfl

/-- The flat [n, 9] array the region leaves: row `b` holds the nine closed-form Gram entries of packed row `b`. -/
def flatGram (x : S8388608x6.Idx → EReal) : S8388608x9.Idx → EReal := fun i => closedRow x (i 0) (i 1)

/-- Both windows' blocks at point `t` are block `t` along the rows and the only block along the columns. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The array row under row `p` of point `t`'s blocks. -/
def rowAt (t : Fin cfg0.N) (p : Fin 2048) : Fin 8388608 :=
  ⟨t.val * 2048 + p.val, by have := t.isLt; have hN : cfg0.N = 4096 := N_0; have := p.isLt; omega⟩

/-- The input block at point `t` is rows [2048·t, 2048·t + 2048) of the packed argument. -/
theorem in_block (c : Dev nD) (t : Fin cfg0.N) (p : Fin 2048) (cc : Fin 6) :
    iblk m c 0 t (ix2 p cc) = V m c main_arg0 (ix2 (rowAt t p) cc) := by
  obtain ⟨e0, e1, e2, e3⟩ := idx_facts t
  show V m c main_arg0 (((cfg0.win 0).blk t).view.emb (ix2 p cc)) = V m c main_arg0 (ix2 (rowAt t p) cc)
  refine congrArg (V m c main_arg0) (funext fun a => Fin.ext ?_)
  match a with
  | ⟨0, _⟩ => show win0_0.index t (0 : Fin 2) * 2048 + 1 * p.val = t.val * 2048 + p.val; omega
  | ⟨1, _⟩ => show win0_0.index t (1 : Fin 2) * 6 + 1 * cc.val = cc.val; omega

/-- The output block at point `t` sits on the same rows of the flat array. -/
theorem out_block (t : Fin cfg0.N) (p : Fin 2048) (q : Fin 9) :
    ((cfg0.win 1).blk t).view.emb (ix2 p q) = ix2 (rowAt t p) q := by
  obtain ⟨e0, e1, e2, e3⟩ := idx_facts t
  refine funext fun a => Fin.ext ?_
  match a with
  | ⟨0, _⟩ => show win0_1.index t (0 : Fin 2) * 2048 + 1 * p.val = t.val * 2048 + p.val; omega
  | ⟨1, _⟩ => show win0_1.index t (1 : Fin 2) * 9 + 1 * q.val = q.val; omega

/-- **What point `t` writes back is block `t` of the flat closed form** of the packed argument. -/
theorem flushed_eq (c : Dev nD) (t : Fin cfg0.N) :
    (dats m 0 c).flushed 1 t = ((cfg0.win 1).blk t).view.read (Elt Ideal) (flatGram (V m c main_arg0)) := by
  show (cfg0.win 1).cut (grid0.coords t) ((dats m 0 c).after 1 t) = _
  rw [after0_1]
  unfold out0_1
  rw [View.canon_unit_zero zero_offsets]
  simp only [View.ld_unit_zero (S := S2048x6) zero_offsets]
  funext j
  obtain ⟨p, q, rfl⟩ : ∃ (p : Fin 2048) (q : Fin 9), j = ix2 p q := ⟨j 0, j 1, eq_ix2 j⟩
  show k0_pay1 (iblk m c 0 t) (ix2 p q) = flatGram (V m c main_arg0) (((cfg0.win 1).blk t).view.emb (ix2 p q))
  rw [out_block]
  refine (pay_apply (iblk m c 0 t) p q).trans ?_
  rw [in_block m c t p 0, in_block m c t p 1, in_block m c t p 2, in_block m c t p 3, in_block m c t p 4, in_block m c t p 5]
  rfl

/-- An index of the flat array is in point `t`'s block iff each coordinate is in the block's range on its axis. -/
theorem mem_blk (t : Fin cfg0.N) (i : S8388608x9.Idx) :
    i ∈ ((cfg0.win 1).blk t).view.set ↔ ∀ a : Fin 2, win0_1.index t a * S2048x9.size a ≤ (i a).val ∧ (i a).val < win0_1.index t a * S2048x9.size a + S2048x9.size a := by
  show i ∈ ((View.whole main_v0).slice (win0_1.rect t)).set ↔ _
  rw [View.set_slice_whole, Rect.mem_set_unit]
  exact Iff.rfl

/-- Every row of the flat array is written: row `r` by point `r / 2048`. -/
theorem cover (i : S8388608x9.Idx) : ∃ t : Fin cfg0.N, (cfg0.win 1).flush t = true ∧ i ∈ ((cfg0.win 1).blk t).view.set := by
  have hi0 : (i 0).val < 8388608 := (i 0).isLt
  have hi1 : (i 1).val < 9 := (i 1).isLt
  have hN : cfg0.N = 4096 := N_0
  have ht : (i 0).val / 2048 < cfg0.N := by omega
  obtain ⟨e0, e1, e2, e3⟩ := idx_facts ⟨(i 0).val / 2048, ht⟩
  refine ⟨⟨(i 0).val / 2048, ht⟩, flush0_1 _, ?_⟩
  rw [mem_blk]
  intro a
  match a with
  | ⟨0, _⟩ =>
    show win0_1.index ⟨(i 0).val / 2048, ht⟩ (0 : Fin 2) * 2048 ≤ (i 0).val ∧ (i 0).val < win0_1.index ⟨(i 0).val / 2048, ht⟩ (0 : Fin 2) * 2048 + 2048
    rw [e2]; show (i 0).val / 2048 * 2048 ≤ (i 0).val ∧ (i 0).val < (i 0).val / 2048 * 2048 + 2048; omega
  | ⟨1, _⟩ =>
    show win0_1.index ⟨(i 0).val / 2048, ht⟩ (1 : Fin 2) * 9 ≤ (i 1).val ∧ (i 1).val < win0_1.index ⟨(i 0).val / 2048, ht⟩ (1 : Fin 2) * 9 + 9
    rw [e3]; omega

/-- **The flat array after the region** is the closed form of every packed row. -/
theorem final (c : Dev nD) : (dats m 0 c).arrAt 1 cfg0.N = flatGram (V m c main_arg0) :=
  (dats m 0 c).arrAt_eq_of_cover 1 (flatGram (V m c main_arg0)) (fun t _ => flushed_eq m c t) cover

/-- The kernel program's result as a function of its argument: the flat closed form, reshaped to [n, 3, 3]. -/
def result (x : S8388608x6.Idx → EReal) : S8388608x3x3.Idx → EReal :=
  shapeCast S8388608x3x3 (flatGram x) shapeCasts_S8388608x9_S8388608x3x3

/-- The one host line after the region reshapes what the region left. -/
theorem tail_eq (c : Dev nD) :
    Pipeline.afterTail₀ cfgs (dats m) 0 (V0 m) [hostOps1] c main_v1 = result (V m c main_arg0) := by
  unfold Pipeline.afterTail₀
  show StableHlo.after hostOps1 _ (Proc.devRef .tc main_v1) = _
  after_results
  exact congrArg (fun X : S8388608x9.Idx → EReal => shapeCast S8388608x3x3 X shapeCasts_S8388608x9_S8388608x3x3)
    ((Pipeline.withArrays_arr spec0 launch0.win.arr_inj c _ _ 1).trans (final m c))

/-- **The reshaped result at (b, i, k)** is the Gram entry (i, k) of row `b`: the reshape reads flat column
    `3·i + k`, and the closed form there is the Gram entry. -/
theorem result_apply (x : S8388608x6.Idx → EReal) (b : Fin 8388608) (i k : Fin 3) :
    result x (ix3 b i k) = gram x b i k := by
  unfold result
  refine (shapeCast_apply (flatGram x) shapeCasts_S8388608x9_S8388608x3x3 (ix3 b i k) (ix2 b (flat i k)) ?_).trans
    (closedRow_eq_gram x b i k)
  rw [Shape.rowMajor_val_two, Shape.rowMajor_val_three]
  show b.val * 9 + (3 * i.val + k.val) = (b.val * 3 + i.val) * 3 + k.val
  omega

/-- The run, read: every weakly fair execution terminates with the result buffer at `result` of the argument and
    the argument unchanged. -/
theorem run : θ_run defs (onTc (τ := τ) (main (F := Ideal))) ⟨m, fun _ => 0, ρ⟩ fun r => ∀ c : Dev nD,
      r.2.mem ((c.tc : Thread nD τ).loc main_v1) = result (m ((c.tc : Thread nD τ).loc main_arg0))
      ∧ r.2.mem ((c.tc : Thread nD τ).loc main_arg0) = m ((c.tc : Thread nD τ).loc main_arg0) :=
  (θ_run defs _ _).mono (fun r h c =>
      ⟨((h c).2 main_v1 (Pipeline.mem_restRefs_of main_v1 rfl (by decide))).trans (tail_eq m c),
       ((h c).1 0).trans (((dats m 0 c).arrAt_in 0 rfl _).trans ((A_eq m c 0).trans (V_main_arg0 m c)))⟩)
    (run_main m ρ)

end Cert.KernelIdeal.BlockValue

end
-- ==== Proof.lean ====
/-
  The two programs compute one function of the packed argument, on the extended reals.

  Each row of the argument holds the six entries of a 3×3 lower-triangular matrix `L`; the result at (b, i, k) is
  the Gram entry `Σ_j L[i, j] · L[k, j]` of row `b`. The kernel writes the nine entries of every row in closed form
  (no term with a zero factor, symmetric entries shared) into a flat [n, 9] array and reshapes it; the reference
  scatters the packed entries into a zero [n, 3, 3] factor and contracts the factor with itself. The two agree on
  every extended real — by `0 · a = 0`, `a + 0 = a` and the commutativity of the product — so the precondition
  (finite inputs) is not used. The idealization rewrote nothing, so what it has to preserve is trivial; the three
  programs' frames are their runs with the value forgotten.
-/
import proofs.«130826_j54941221650671_2_alg».proof.Defs
import proofs.«130826_j54941221650671_2_alg».proof.Proof.Gen.Kernel
import proofs.«130826_j54941221650671_2_alg».proof.Proof.Gen.Kernel.Frame
import proofs.«130826_j54941221650671_2_alg».proof.Proof.Gen.KernelIdeal
import proofs.«130826_j54941221650671_2_alg».proof.Proof.Gen.KernelIdeal.Frame
import proofs.«130826_j54941221650671_2_alg».proof.Proof.Gen.ReferenceIdeal
import proofs.«130826_j54941221650671_2_alg».proof.Proof.Gen.Pre_finite_inputs
import proofs.«130826_j54941221650671_2_alg».proof.Proof.RefRun
import proofs.«130826_j54941221650671_2_alg».proof.Proof.RefValue
import proofs.«130826_j54941221650671_2_alg».proof.Proof.KernelValue
import Idealize.ShloMosaic.Adequacy
import Idealize.ShloMosaic.Init

noncomputable section

namespace Cert.Proof

open Idealize.ShloMosaic Idealize.ShloMosaic.ValueIdx Idealize.SL.Sem

/-- The kernel's reshaped closed form and the reference's contraction of the scattered factor are one function of
    the argument: at every (b, i, k) both are the Gram entry of row `b`. -/
theorem results_agree (x : (⟨2, ![8388608, 6]⟩ : Shape).Idx → EReal) :
    Cert.ReferenceIdeal.RefRun.result (F := Ideal) x = Cert.KernelIdeal.BlockValue.result x := by
  funext j
  obtain ⟨b, i, k, rfl⟩ : ∃ (b : Fin 8388608) (i k : Fin 3), j = ix3 b i k := ⟨j 0, j 1, j 2, eq_ix3 j⟩
  rw [Cert.ReferenceIdeal.RefValue.result_apply, Cert.KernelIdeal.BlockValue.result_apply]

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both idealized programs run to the same result: the kernel's run ends at its closed form of the argument, the
    reference's at its contraction of the scattered argument, and the two are one function (`results_agree`). -/
theorem algebraic : Cert.algebraic_KernelIdeal_ReferenceIdeal := by
  intro m ρ m' ρ' _ hagree
  refine ⟨fun c => Cert.KernelIdeal.BlockValue.result (m ((c.tc : Thread Cert.KernelIdeal.nD Cert.KernelIdeal.τ).loc Cert.KernelIdeal.main_arg0)),
    Cert.KernelIdeal.BlockValue.run m ρ, ?_⟩
  refine (θ_run Cert.ReferenceIdeal.defs _ _).mono (fun _ h c => ⟨(h c).1.trans ?_, (h c).2⟩)
    (Cert.ReferenceIdeal.RefRun.run (F := Ideal) m' ρ')
  rw [hagree c]
  exact results_agree _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
